-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S128x256 : Shape := ⟨2, ![128, 256]⟩
abbrev S256 : Shape := ⟨1, ![256]⟩
abbrev S50000x256 : Shape := ⟨2, ![50000, 256]⟩
abbrev S5000x128 : Shape := ⟨2, ![5000, 128]⟩
abbrev S5000x256 : Shape := ⟨2, ![5000, 256]⟩
abbrev S650000x256 : Shape := ⟨2, ![650000, 256]⟩
abbrev S1x256 : Shape := ⟨2, ![1, 256]⟩

abbrev nBuf : Space → Nat
  | .hbm => 69
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S50000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S128x256, .f32⟩
  | .hbm, ⟨47, _⟩ => ⟨S256, .f32⟩
  | .hbm, ⟨48, _⟩ => ⟨S50000x128, .bf16⟩
  | .hbm, ⟨49, _⟩ => ⟨S128x256, .bf16⟩
  | .hbm, ⟨50, _⟩ => ⟨S50000x256, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S650000x256, .f32⟩
  | .hbm, ⟨60, _⟩ => ⟨S650000x1, .f32⟩
  | .hbm, ⟨61, _⟩ => ⟨S650000x256, .f32⟩
  | .hbm, ⟨62, _⟩ => ⟨S650000x256, .f32⟩
  | .hbm, ⟨63, _⟩ => ⟨S_, .f32⟩
  | .hbm, ⟨64, _⟩ => ⟨S50000x256, .f32⟩
  | .hbm, ⟨65, _⟩ => ⟨S650000x1, .i32⟩
  | .hbm, ⟨66, _⟩ => ⟨S50000x256, .f32⟩
  | .hbm, ⟨67, _⟩ => ⟨S1x256, .f32⟩
  | .hbm, ⟨68, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S128x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  concatenates_S128x128_S128x128_S128x256_d1 : Shape.Concatenates [S128x128, S128x128] S128x256 1
  concatenates_S128_S128_S256_d0 : Shape.Concatenates [S128, S128] S256 0
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x256_S5000x256_1_0_0_1_n_n_wf : DotDims.WF S5000x128 S128x256 S5000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S1x600000, .i32⟩
  | 7 => ⟨S600000, .i32⟩
  | 8 => ⟨S1x600000, .i32⟩
  | 9 => ⟨S600000, .i32⟩
  | 10 => ⟨S50000x128, .f32⟩
  | 11 => ⟨S50000, .i32⟩
  | 12 => ⟨S650000, .i32⟩
  | 13 => ⟨S650000, .i32⟩
  | 14 => ⟨S_, .f32⟩
  | 15 => ⟨S650000, .f32⟩
  | 16 => ⟨S_, .f32⟩
  | 17 => ⟨S50000, .f32⟩
  | 18 => ⟨S650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S650000, .i32⟩
  | 30 => ⟨S650000, .i1⟩
  | 31 => ⟨S_, .i32⟩
  | 32 => ⟨S650000, .i32⟩
  | 33 => ⟨S650000, .i32⟩
  | 34 => ⟨S650000, .i32⟩
  | 35 => ⟨S650000x1, .i32⟩
  | 36 => ⟨S650000, .f32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000x128, .f32⟩
  | 57 => ⟨S650000x1, .f32⟩
  | 58 => ⟨S650000x128, .f32⟩
  | 59 => ⟨S650000x128, .f32⟩
  | 60 => ⟨S_, .f32⟩
  | 61 => ⟨S50000x128, .f32⟩
  | 62 => ⟨S650000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S50000, .i32⟩
  | 72 => ⟨S650000, .i32⟩
  | 73 => ⟨S650000, .i32⟩
  | 74 => ⟨S_, .f32⟩
  | 75 => ⟨S650000, .f32⟩
  | 76 => ⟨S_, .f32⟩
  | 77 => ⟨S50000, .f32⟩
  | 78 => ⟨S650000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S650000, .i32⟩
  | 90 => ⟨S650000, .i1⟩
  | 91 => ⟨S_, .i32⟩
  | 92 => ⟨S650000, .i32⟩
  | 93 => ⟨S650000, .i32⟩
  | 94 => ⟨S650000, .i32⟩
  | 95 => ⟨S650000x1, .i32⟩
  | 96 => ⟨S650000, .f32⟩
  | 97 => ⟨S650000, .f32⟩
  | 98 => ⟨S_, .i32⟩
  | 99 => ⟨S650000, .i32⟩
  | 100 => ⟨S650000, .i1⟩
  | 101 => ⟨S_, .i32⟩
  | 102 => ⟨S650000, .i32⟩
  | 103 => ⟨S650000, .i32⟩
  | 104 => ⟨S650000, .i32⟩
  | 105 => ⟨S650000x1, .i32⟩
  | 106 => ⟨S650000, .f32⟩
  | 107 => ⟨S650000, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000x128, .f32⟩
  | 117 => ⟨S650000x1, .f32⟩
  | 118 => ⟨S650000x128, .f32⟩
  | 119 => ⟨S650000x128, .f32⟩
  | 120 => ⟨S_, .f32⟩
  | 121 => ⟨S50000x128, .f32⟩
  | 122 => ⟨S650000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call3_cst : Ref sig .tc := ⟨.hbm, 127, rfl⟩
abbrev main_call3_v0 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The idealized kernel's run with its result named.

  The program is two launches among stretches of host operations. Its run ends, on every core, with every unscoped
  buffer at the contents the last boundary of the program assigns it: the result buffer holds what the second launch's
  write-backs leave in its output array, and each argument holds what it held at the start.
-/
import proofs.«157204_j54211077210420_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second launch's output array: at the program's last boundary it holds what that
    launch's write-backs leave, the fold of its ten blocks over the array as the launch found it. -/
theorem result_eq (c : Dev nD) :
    W6 m ρ c (Proc.devRef .tc main_v49) = (dat1 (V5 m ρ) c).arrAt 2 cfg1.N :=
  W6_arr m ρ c 2

set_option backward.isDefEq.respectTransparency.types false in
/-- Every weakly fair execution of the program terminates, nothing faulting, with the result buffer at the
    second launch's output array and the six arguments as they were. -/
theorem run : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.Combine.lean ====
/-
  The second launch (bias, positive part, mean of the two halves) as one function of the arrays it finds.

  The launch walks ten blocks of 5000 rows. At a block it reads the 5000 × 256 block `o` of the aggregated array and the
  whole 1 × 256 bias row `b`, and writes the 5000 × 128 block whose entry `(r, q)` is
  `1/2 · (max (o (r, q) + b (0, q)) 0 + max (o (r, q + 128) + b (0, q + 128)) 0)`.
  The ten blocks tile the 50000 rows, so the output array ends holding that function of the whole aggregated array.
-/
import proofs.«157204_j54211077210420_1_alg».proof.Proof.Gen.KernelIdeal.Frame
import Idealize.ShloMosaic.Lib.Pipeline.Value
import Idealize.ShloMosaic.Lib.ValueIdx

set_option maxRecDepth 16384

noncomputable section

namespace Cert.KernelIdeal.Combine

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- Column `q` of the first half of a 256-wide row. -/
abbrev lo (q : Fin 128) : Fin 256 := ⟨q.val, by omega⟩
/-- Column `q` of the second half of a 256-wide row. -/
abbrev hi (q : Fin 128) : Fin 256 := ⟨q.val + 128, by omega⟩

/-- One output entry from the four entries it depends on: the two halves' aggregated values `a₁`, `a₂` and their
    biases `c₁`, `c₂`. -/
def entry (a₁ c₁ a₂ c₂ : F .f32) : F .f32 :=
  FloatOps.mulf (Scalar.ofBits .f32 0x3F000000#32)
    (FloatOps.addf (FloatOps.maximumf (FloatOps.addf a₁ c₁) (Scalar.ofBits .f32 0x00000000#32))
      (FloatOps.maximumf (FloatOps.addf a₂ c₂) (Scalar.ofBits .f32 0x00000000#32)))

/-- The biased block at `(r, k)`: the block's entry plus the bias row's entry of that column. -/
theorem biased_apply (x0 : Vec F S5000x256 .f32) (x1 : Vec F S1x256 .f32) (r : Fin 5000) (k : Fin 256) :
    addf (shapeCast S5000x256 x0 Facts₀.shapeCasts_S5000x256_S5000x256)
        (broadcastTo S5000x256 (shapeCast S1x256 x1 Facts₀.shapeCasts_S1x256_S1x256) Facts₀.broadcasts_S1x256_S5000x256) (ix2 r k)
      = FloatOps.addf (x0 (ix2 r k)) (x1 (ix2 (0 : Fin 1) k)) := by
  show FloatOps.addf (shapeCast S5000x256 x0 Facts₀.shapeCasts_S5000x256_S5000x256 (ix2 r k))
      (broadcastTo S5000x256 (shapeCast S1x256 x1 Facts₀.shapeCasts_S1x256_S1x256) Facts₀.broadcasts_S1x256_S5000x256 (ix2 r k)) = _
  rw [shapeCast_self, shapeCast_self,
    broadcastTo_apply x1 Facts₀.broadcasts_S1x256_S5000x256 (ix2 r k) (ix2 (0 : Fin 1) k) (fun a => by
      match a with
      | ⟨0, _⟩ => rfl
      | ⟨1, _⟩ => rfl)]

/-- The body's stored value at `(r, q)`. -/
theorem pay_apply (x0 : Vec F S5000x256 .f32) (x1 : Vec F S1x256 .f32) (r : Fin 5000) (q : Fin 128) :
    k1_pay1 x0 x1 (ix2 r q)
      = entry (x0 (ix2 r (lo q))) (x1 (ix2 (0 : Fin 1) (lo q))) (x0 (ix2 r (hi q))) (x1 (ix2 (0 : Fin 1) (hi q))) := by
  unfold k1_pay1 entry
  show FloatOps.mulf _ (FloatOps.addf
      (FloatOps.maximumf (extractStridedSlice S5000x128 ![0, 0] (_ : FVec F S5000x256 .f32) Facts₀.slices_S5000x256_o0_0_S5000x128 (ix2 r q)) _)
      (FloatOps.maximumf (extractStridedSlice S5000x128 ![0, 128] (_ : FVec F S5000x256 .f32) Facts₀.slices_S5000x256_o0_128_S5000x128 (ix2 r q)) _)) = _
  rw [extractStridedSlice_apply ![0, 0] _ Facts₀.slices_S5000x256_o0_0_S5000x128 (ix2 r q) (ix2 r (lo q)) (fun a => by
        match a with
        | ⟨0, _⟩ => show r.val = 0 + r.val; omega
        | ⟨1, _⟩ => show q.val = 0 + q.val; omega),
    extractStridedSlice_apply ![0, 128] _ Facts₀.slices_S5000x256_o0_128_S5000x128 (ix2 r q) (ix2 r (hi q)) (fun a => by
        match a with
        | ⟨0, _⟩ => show r.val = 0 + r.val; omega
        | ⟨1, _⟩ => show q.val + 128 = 128 + q.val; omega),
    biased_apply, biased_apply]
  rfl

/-! ## From the ten blocks to the array -/

/-- The whole-array function: entry `(p, q)` from row `p` of the aggregated array and the bias row. -/
def whole (o : S50000x256.Idx → Elt F .f32) (b : S1x256.Idx → Elt F .f32) : S50000x128.Idx → Elt F .f32 :=
  fun i => entry (o (ix2 ⟨(i 0).val, idx2_lt0 i⟩ (lo ⟨(i 1).val, idx2_lt1 i⟩))) (b (ix2 (0 : Fin 1) (lo ⟨(i 1).val, idx2_lt1 i⟩)))
    (o (ix2 ⟨(i 0).val, idx2_lt0 i⟩ (hi ⟨(i 1).val, idx2_lt1 i⟩))) (b (ix2 (0 : Fin 1) (hi ⟨(i 1).val, idx2_lt1 i⟩)))

theorem whole_apply (o : S50000x256.Idx → Elt F .f32) (b : S1x256.Idx → Elt F .f32) (p : Fin 50000) (q : Fin 128) :
    whole o b (ix2 p q) = entry (o (ix2 p (lo q))) (b (ix2 (0 : Fin 1) (lo q))) (o (ix2 p (hi q))) (b (ix2 (0 : Fin 1) (hi q))) := rfl

theorem hz : (![0, 0] : Fin 2 → Nat) = fun _ => 0 := funext fun a => by fin_cases a <;> rfl

/-- The index maps over the grid: at point `t` the aggregated block and the output block are block `t` of their rows,
    and the bias row is always block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-- What point `t` writes back is block `t` of the whole-array function of the arrays the launch finds. -/
theorem flushed_eq (c : Dev nD) (t : Fin cfg1.N) :
    (dat1 V c).flushed 2 t = ((cfg1.win 2).blk t).view.read (Elt F) (whole (V c main_v47) (V c main_v48)) := by
  show (cfg1.win 2).cut (grid1.coords t) ((dat1 V c).after 2 t) = _
  rw [after1_2]
  unfold out1_2
  rw [View.canon_unit_zero hz]
  simp only [View.ld_unit_zero (S := S5000x256) hz, View.ld_unit_zero (S := S1x256) hz]
  obtain ⟨e0, e1, e2, e3, e4, e5⟩ := idx_facts t
  have ht : t.val < 10 := t.isLt
  funext j
  obtain ⟨r, q, rfl⟩ : ∃ (r : Fin 5000) (q : Fin 128), j = ix2 r q := ⟨j 0, j 1, eq_ix2 j⟩
  refine (pay_apply (iblk1 V c 0 t) (iblk1 V c 1 t) r q).trans ?_
  have hA : ∀ k : Fin 256, ((cfg1.win 0).blk t).view.emb (ix2 r k) = ix2 (⟨t.val * 5000 + r.val, by omega⟩ : Fin 50000) k := fun k => by
    funext a; apply Fin.ext
    match a with
    | ⟨0, _⟩ => show win1_0.index t (0 : Fin 2) * 5000 + 1 * r.val = t.val * 5000 + r.val; omega
    | ⟨1, _⟩ => show win1_0.index t (1 : Fin 2) * 256 + 1 * k.val = k.val; omega
  have hB : ∀ k : Fin 256, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 256 + 1 * k.val = k.val; omega
  have hC : ((cfg1.win 2).blk t).view.emb (ix2 r q) = ix2 (⟨t.val * 5000 + r.val, by omega⟩ : Fin 50000) q := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * q.val = q.val; omega
  show entry (V c main_v47 (((cfg1.win 0).blk t).view.emb (ix2 r (lo q)))) (V c main_v48 (((cfg1.win 1).blk t).view.emb (ix2 (0 : Fin 1) (lo q))))
      (V c main_v47 (((cfg1.win 0).blk t).view.emb (ix2 r (hi q)))) (V c main_v48 (((cfg1.win 1).blk t).view.emb (ix2 (0 : Fin 1) (hi q))))
    = whole (V c main_v47) (V c main_v48) (((cfg1.win 2).blk t).view.emb (ix2 r q))
  rw [hA, hA, hB, hB, hC, whole_apply]

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every row of the output is in the block of the point `row / 5000`. -/
theorem cover (i : S50000x128.Idx) : ∃ t : Fin cfg1.N, (cfg1.win 2).flush t = true ∧ i ∈ ((cfg1.win 2).blk t).view.set := by
  have hi0 : (i 0).val < 50000 := idx2_lt0 i
  have hi1 : (i 1).val < 128 := idx2_lt1 i
  have hlt : (i 0).val / 5000 < 10 := by omega
  obtain ⟨e0, e1, e2, e3, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e5]; omega

/-- THE OUTPUT ARRAY after the launch: the whole-array function of the aggregated array and the bias row as found. -/
theorem final (c : Dev nD) : (dat1 V c).arrAt 2 cfg1.N = whole (V c main_v47) (V c main_v48) :=
  (dat1 V c).arrAt_eq_of_cover 2 (whole (V c main_v47) (V c main_v48)) (fun t _ => flushed_eq V c t) cover

end Cert.KernelIdeal.Combine

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Project.lean ====
/-
  The first launch (the fused projection) as one function of the arrays it finds, on the extended reals.

  The launch walks ten blocks of 5000 rows. At a block it reads the 5000 × 128 block of the features `X` and the whole
  128 × 256 weight `W`, and writes their product into a zero accumulator: entry `(r, q)` of the block is
  `∑ k, X (r, k) · W (k, q)`. The ten blocks tile the 50000 rows, so the output array ends holding the product of the
  whole feature array with the weight.
-/
import proofs.«157204_j54211077210420_1_alg».proof.Proof.Gen.KernelIdeal.Frame
import proofs.«157204_j54211077210420_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Project

open Cert.KernelIdeal Cert.KernelIdeal.Gen
open Idealize.ShloMosaic Idealize.ShloMosaic.TcCoe Idealize.ShloMosaic.ValueIdx Idealize.SL.Sem
open Idealize.ShloMosaic.Pipeline (Dat)

/-- The product of an `N × 128` array with a `128 × 256` array, entry by entry. -/
def prod {N : Nat} {φ₁ φ₂ : FTy} (X : (⟨2, ![N, 128]⟩ : Shape).Idx → Ideal φ₁) (W : (⟨2, ![128, 256]⟩ : Shape).Idx → Ideal φ₂) :
    (⟨2, ![N, 256]⟩ : Shape).Idx → EReal :=
  fun i => ∑ k : Fin 128, X (ix2 ⟨(i 0).val, idx2_lt0 i⟩ k) * W (ix2 k ⟨(i 1).val, idx2_lt1 i⟩)

theorem prod_apply {N : Nat} {φ₁ φ₂ : FTy} (X : (⟨2, ![N, 128]⟩ : Shape).Idx → Ideal φ₁)
    (W : (⟨2, ![128, 256]⟩ : Shape).Idx → Ideal φ₂) (p : Fin N) (q : Fin 256) :
    prod X W (ix2 p q) = ∑ k : Fin 128, X (ix2 p k) * W (ix2 k q) := rfl

/-- The body's stored value at `(r, q)`: the inner product of row `r` of the feature block with column `q` of the weight. -/
theorem pay_apply (x0 : Vec Ideal S5000x128 .bf16) (x1 : Vec Ideal S128x256 .bf16) (r : Fin 5000) (q : Fin 256) :
    k0_pay1 (F := Ideal) x0 x1 (ix2 r q) = ∑ k : Fin 128, x0 (ix2 r k) * x1 (ix2 k q) := by
  unfold k0_pay1
  rw [shapeCast_self, shapeCast_self]
  exact Cert.Lib.PlainDot.matmul_zero_apply none x0 x1 r q

/-! ## From the ten blocks to the array -/

/-- A block's entry is the whole product's entry when row `r` of the feature block is row `i` of the feature array and
    column `q` of the weight block is column `q` of the weight. -/
theorem blk_entry (X : S50000x128.Idx → EReal) (Wt : S128x256.Idx → EReal)
    (x0 : S5000x128.Idx → EReal) (x1 : S128x256.Idx → EReal) (i : Fin 50000) (r : Fin 5000) (q : Fin 256)
    (h0 : ∀ k : Fin 128, x0 (ix2 r k) = X (ix2 i k)) (h1 : ∀ k : Fin 128, x1 (ix2 k q) = Wt (ix2 k q)) :
    (∑ k : Fin 128, x0 (ix2 r k) * x1 (ix2 k q)) = prod (N := 50000) (φ₁ := .bf16) (φ₂ := .bf16) X Wt (ix2 i q) := by
  rw [prod_apply]
  exact Finset.sum_congr rfl fun k _ => by rw [h0, h1]

theorem hz : (![0, 0] : Fin 2 → Nat) = fun _ => 0 := funext fun a => by fin_cases a <;> rfl

/-- The index maps over the grid: at point `t` the feature block and the output block are block `t` of their rows, and
    the weight is always block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the whole feature array with the weight. -/
theorem flushed_eq (c : Dev nD) (t : Fin cfg0.N) :
    (dat0 V c).flushed 2 t = ((cfg0.win 2).blk t).view.read (Elt Ideal) (prod (N := 50000) (φ₁ := .bf16) (φ₂ := .bf16) (V c main_v32) (V c main_v33)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨e0, e1, e2, e3, e4, e5⟩ := idx_facts t
  have ht : t.val < 10 := t.isLt
  funext j
  obtain ⟨r, q, rfl⟩ : ∃ (r : Fin 5000) (q : Fin 256), j = ix2 r q := ⟨j 0, j 1, eq_ix2 j⟩
  refine (pay_apply (iblk0 V c 0 t) (iblk0 V c 1 t) r q).trans ?_
  have hA : ∀ k : Fin 128, ((cfg0.win 0).blk t).view.emb (ix2 r k) = ix2 (⟨t.val * 5000 + r.val, by omega⟩ : Fin 50000) k := fun k => by
    funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  have hB : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  have hC : ((cfg0.win 2).blk t).view.emb (ix2 r q) = ix2 (⟨t.val * 5000 + r.val, by omega⟩ : Fin 50000) q := by
    funext a; apply Fin.ext
    match a with
    | ⟨0, _⟩ => show win0_2.index t (0 : Fin 2) * 5000 + 1 * r.val = t.val * 5000 + r.val; omega
    | ⟨1, _⟩ => show win0_2.index t (1 : Fin 2) * 256 + 1 * q.val = q.val; omega
  refine Eq.trans ?_ (congrArg (prod (N := 50000) (φ₁ := .bf16) (φ₂ := .bf16) (V c main_v32) (V c main_v33)) hC.symm)
  exact blk_entry (V c main_v32) (V c main_v33) (iblk0 V c 0 t) (iblk0 V c 1 t) ⟨t.val * 5000 + r.val, by omega⟩ r q
    (fun k => by
      show V c main_v32 (((cfg0.win 0).blk t).view.emb (ix2 r k)) = _
      rw [hA])
    (fun k => by
      show V c main_v33 (((cfg0.win 1).blk t).view.emb (ix2 k q)) = _
      rw [hB])

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v34).slice (win0_2.rect t)).set ↔ _
  rw [View.set_slice_whole, Rect.mem_set_unit]
  exact Iff.rfl

/-- Every row of the output is in the block of the point `row / 5000`. -/
theorem cover (i : S50000x256.Idx) : ∃ t : Fin cfg0.N, (cfg0.win 2).flush t = true ∧ i ∈ ((cfg0.win 2).blk t).view.set := by
  have hi0 : (i 0).val < 50000 := idx2_lt0 i
  have hi1 : (i 1).val < 256 := idx2_lt1 i
  have hlt : (i 0).val / 5000 < 10 := by omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 256 ≤ (i 1).val ∧ (i 1).val < win0_2.index ⟨(i 0).val / 5000, hlt⟩ (1 : Fin 2) * 256 + 256
    rw [e5]; omega

/-- THE OUTPUT ARRAY after the launch: the product of the feature array and the weight as the launch finds them. -/
theorem final (c : Dev nD) : (dat0 V c).arrAt 2 cfg0.N = prod (N := 50000) (φ₁ := .bf16) (φ₂ := .bf16) (V c main_v32) (V c main_v33) :=
  (dat0 V c).arrAt_eq_of_cover 2 (prod (N := 50000) (φ₁ := .bf16) (φ₂ := .bf16) (V c main_v32) (V c main_v33)) (fun t _ => flushed_eq V c t) cover

end Cert.KernelIdeal.Project

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibAggregate.lean ====
/-
  The normalised aggregation of a graph layer, read at an entry.

  For a table `h` of `N` rows and `C` columns, a column `src` of `M` source words, a column `dst` of `M` destination
  words and a weight `w e` per edge `e`, the aggregation gathers row `src e` of `h` for every edge, scales it by `w e`
  and adds it into row `dst e` of a table of zeros. Entry `(n, c)` of the result is
  `0 + ∑ e ∈ edges landing on n, h (row read by e, c) · w e`:
  neither the set of edges landing on `n` nor the row an edge reads depends on the column or on the number of columns, which
  is what lets two tables laid side by side be aggregated at once.
-/
import proofs.«157204_j54211077210420_1_alg».proof.Proof.LibRowScatter

noncomputable section

open scoped BigOperators

namespace Cert.Lib.Aggregate

open Idealize.ShloMosaic Idealize.ShloMosaic.ValueIdx Cert.Lib.RowScatter

/-- A vector of `M` entries made a column and spread along `C` columns, read at `(e, c)`: entry `e`. -/
theorem spread_apply {α : Type} {M C : Nat} (hM : M ≠ 1)
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (v : (⟨1, ![M]⟩ : Shape).Idx → α) (e : Fin M) (c : Fin C) :
    broadcastInDim ⟨2, ![M, C]⟩ ![0, 1] h₂ (broadcastInDim ⟨2, ![M, 1]⟩ ![0] h₁ v) (ix2 e c) = v (ix1 e) := by
  rw [broadcastInDim_apply ![0, 1] h₂ _ (ix2 e c) (ix2 e (0 : Fin 1)) (fun a => by
      match a with
      | ⟨0, _⟩ => show e.val = if M = 1 then 0 else e.val; rw [if_neg hM]
      | ⟨1, _⟩ => show 0 = if (1 : Nat) = 1 then 0 else c.val; rw [if_pos rfl]),
    broadcastInDim_apply ![0] h₁ v (ix2 e (0 : Fin 1)) (ix1 e) (fun a => by
      match a with
      | ⟨0, _⟩ => show e.val = if M = 1 then 0 else e.val; rw [if_neg hM])]

/-- A vector of `M` words made a column, read at `(e, 0)`: word `e`. -/
theorem column_apply {α : Type} {M : Nat} (hM : M ≠ 1)
    (h₁ : (⟨1, ![M]⟩ : Shape).BroadcastsInDim ⟨2, ![M, 1]⟩ (![0] : Fin 1 → Fin 2))
    (v : (⟨1, ![M]⟩ : Shape).Idx → α) (e : Fin M) :
    broadcastInDim ⟨2, ![M, 1]⟩ ![0] h₁ v (ix2 e (0 : Fin 1)) = v (ix1 e) :=
  broadcastInDim_apply ![0] h₁ v (ix2 e (0 : Fin 1)) (ix1 e) (fun a => by
    match a with
    | ⟨0, _⟩ => show e.val = if M = 1 then 0 else e.val; rw [if_neg hM])

/-- The aggregation as the host spells it: a scatter-add, into a table of zeros, of the gathered rows each scaled by its
    edge's weight. -/
def aggregate {N M C : Nat}
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (src dst : IVec ⟨2, ![M, 1]⟩ 32) (w : FVec Ideal ⟨1, ![M]⟩ .f32) :
    FVec Ideal ⟨2, ![N, C]⟩ .f32 :=
  Host.scatterAdd (F := Ideal) (rowScatterDims N M C wfS)
    (broadcastInDim ⟨2, ![N, C]⟩ ![] hz (constant (F := Ideal) ⟨0, ![]⟩ .f32 0x00000000#32)) dst
    (mulf (Host.gather (rowGatherDims N M C wfG) h src)
      (broadcastInDim ⟨2, ![M, C]⟩ ![0, 1] h₂ (broadcastInDim ⟨2, ![M, 1]⟩ ![0] h₁ w)))

/-- THE AGGREGATION READ AT `(n, c)`: the zero word plus the sum, over the edges whose signed destination word is `n`,
    of the table's entry at the edge's clamped source row and column `c` times the edge's weight. -/
theorem aggregate_apply {N M C : Nat} (hN : 0 < N) (hM : M ≠ 1)
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (src dst : IVec ⟨2, ![M, 1]⟩ 32) (w : FVec Ideal ⟨1, ![M]⟩ .f32)
    (n : Fin N) (c : Fin C) :
    aggregate wfS wfG hz h₁ h₂ h src dst w (ix2 n c)
      = Ideal.ofBits .f32 0x00000000#32 + ∑ e ∈ landsOn dst N n, h (ix2 (gatherRow N hN src e) c) * w (ix1 e) := by
  unfold aggregate
  rw [scatterAdd_rows_apply]
  congr 1
  refine Finset.sum_congr rfl fun e _ => ?_
  show (Host.gather (rowGatherDims N M C wfG) h src (ix2 e c) : EReal)
      * broadcastInDim ⟨2, ![M, C]⟩ ![0, 1] h₂ (broadcastInDim ⟨2, ![M, 1]⟩ ![0] h₁ w) (ix2 e c) = _
  rw [gather_rows_apply hN, spread_apply hM]

end Cert.Lib.Aggregate

end
-- ==== Proof.HostRead.lean ====
/-
  The host stretches of the idealized kernel, read at the buffers the two launches take.

  Before the first launch the host slices the edge table into sources and destinations, appends one self loop per node,
  counts the in-degrees, takes their inverse square roots where positive, and multiplies the two gathered factors into
  one weight per edge; it lays the two weight matrices side by side and narrows them and the features. Between the
  launches it gathers the projected rows by source, scales each by its edge's weight and adds it into a table of
  zeros by destination, and lays the two bias vectors end to end as one row. Each of these values is stated here as a
  function of the argument arrays: the index and weight chains are, operation for operation, the ones the reference
  program applies, so they are stated with the reference's own stage functions and never opened.
-/
import proofs.«157204_j54211077210420_1_alg».proof.Proof.Gen.KernelIdeal.Frame
import proofs.«157204_j54211077210420_1_alg».proof.Proof.RefReadPatched
import proofs.«157204_j54211077210420_1_alg».proof.Proof.LibAggregate
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo Idealize.SL.Sem
open Cert.Lib.Aggregate

/-- An array of shape `s` and element type `e` on the extended reals. -/
abbrev Arr (s : Shape) (e : EltTy) : Type := (⟨s, e⟩ : BufTy).Contents (Elt Ideal)

variable (m : (ℓ : Loc nD τ sig) → Buf (Elt Ideal) ℓ) (ρ : Dev nD → PrngReg)

/-- The sources, self loops appended: the reference's source words. -/
theorem src_eq (c : Dev nD) :
    W3 m ρ c (Proc.devRef .tc main_v5) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v5) = _
  after_results_simp <;> rfl

/-- The destinations, self loops appended: the reference's destination words. -/
theorem dst_eq (c : Dev nD) :
    W3 m ρ c (Proc.devRef .tc main_v6) = Cert.ReferenceIdeal.ReadP.val_main_v7 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

/-! ### The edge weights, stretch by stretch

The inverse-root degrees are the result of an outlined selection (`where`), spelt through typed references whose
contents are transported along their type equations; that stretch is read for an arbitrary valuation before it, so that
the transports are removed once, and the stretches before and after it are read on their own. -/

/-- After the first stretch: the mask of positive in-degrees. -/
theorem w1_pos (c : Dev nD) :
    W1 m ρ c (Proc.devRef .tc main_v12) = Cert.ReferenceIdeal.ReadP.val_main_v13 (F := Ideal) (m ((c : Thread nD τ).loc main_arg1)) := by
  show StableHlo.after hostOps0 (W0 m ρ c) (Proc.devRef .tc main_v12) = _
  after_results_simp <;> rfl

/-- After the first stretch: the inverse square roots of the in-degrees. -/
theorem w1_rsqrt (c : Dev nD) :
    W1 m ρ c (Proc.devRef .tc main_v13) = Cert.ReferenceIdeal.ReadP.val_main_v14 (F := Ideal) (m ((c : Thread nD τ).loc main_arg1)) := by
  show StableHlo.after hostOps0 (W0 m ρ c) (Proc.devRef .tc main_v13) = _
  after_results_simp <;> rfl

/-- After the first stretch: the zero the selection falls back to. -/
theorem w1_zero (c : Dev nD) :
    W1 m ρ c (Proc.devRef .tc main_cst_2) = Cert.ReferenceIdeal.ReadP.val_main_cst_2 (F := Ideal) := by
  show StableHlo.after hostOps0 (W0 m ρ c) (Proc.devRef .tc main_cst_2) = _
  after_results_simp <;> rfl

/-- After the first stretch: the source words. -/
theorem w1_src (c : Dev nD) :
    W1 m ρ c (Proc.devRef .tc main_v5) = Cert.ReferenceIdeal.ReadP.val_main_v6 (F := Ideal) (m ((c : Thread nD τ).loc main_arg1)) := by
  show StableHlo.after hostOps0 (W0 m ρ c) (Proc.devRef .tc main_v5) = _
  after_results_simp <;> rfl

/-- After the first stretch: the destination words. -/
theorem w1_dst (c : Dev nD) :
    W1 m ρ c (Proc.devRef .tc main_v6) = Cert.ReferenceIdeal.ReadP.val_main_v7 (F := Ideal) (m ((c : Thread nD τ).loc main_arg1)) := by
  show StableHlo.after hostOps0 (W0 m ρ c) (Proc.devRef .tc main_v6) = _
  after_results_simp <;> rfl

/-- The selection's stretch from any valuation: where the mask is set the second operand, elsewhere the scalar spread. -/
theorem where_eq (F1 : Valuation τ sig (Elt Ideal)) :
    StableHlo.after hostOps0_1 F1 (Proc.devRef .tc main_v14)
      = select (F1 (Proc.devRef .tc main_v12)) (F1 (Proc.devRef .tc main_v13))
          (broadcastInDim S50000 ![] Facts₀.bcast_S_S50000 (id (F1 (Proc.devRef .tc main_cst_2)))) := by
  after_results_simp
  rfl

/-- The selection's stretch leaves the source words as they were. -/
theorem where_keeps_src (F1 : Valuation τ sig (Elt Ideal)) :
    StableHlo.after hostOps0_1 F1 (Proc.devRef .tc main_v5) = F1 (Proc.devRef .tc main_v5) := by
  after_results_simp

/-- The selection's stretch leaves the destination words as they were. -/
theorem where_keeps_dst (F1 : Valuation τ sig (Elt Ideal)) :
    StableHlo.after hostOps0_1 F1 (Proc.devRef .tc main_v6) = F1 (Proc.devRef .tc main_v6) := by
  after_results_simp

/-- After the selection: the inverse-root degrees, zero where the in-degree is not positive. -/
theorem w2_dinv (c : Dev nD) :
    W2 m ρ c (Proc.devRef .tc main_v14) = Cert.ReferenceIdeal.ReadP.val_main_v15 (F := Ideal) (m ((c : Thread nD τ).loc main_arg1)) := by
  show StableHlo.after hostOps0_1 (W1 m ρ c) (Proc.devRef .tc main_v14) = _
  rw [where_eq, w1_pos, w1_rsqrt, w1_zero]
  rfl

theorem w2_src (c : Dev nD) :
    W2 m ρ c (Proc.devRef .tc main_v5) = Cert.ReferenceIdeal.ReadP.val_main_v6 (F := Ideal) (m ((c : Thread nD τ).loc main_arg1)) := by
  show StableHlo.after hostOps0_1 (W1 m ρ c) (Proc.devRef .tc main_v5) = _
  rw [where_keeps_src, w1_src]

theorem w2_dst (c : Dev nD) :
    W2 m ρ c (Proc.devRef .tc main_v6) = Cert.ReferenceIdeal.ReadP.val_main_v7 (F := Ideal) (m ((c : Thread nD τ).loc main_arg1)) := by
  show StableHlo.after hostOps0_1 (W1 m ρ c) (Proc.devRef .tc main_v6) = _
  rw [where_keeps_dst, w1_dst]

/-- The edge weights: the inverse-root degree gathered at the source times the one gathered at the destination. -/
theorem norm_eq (c : Dev nD) :
    W3 m ρ c (Proc.devRef .tc main_v29)
      = mulf (F := Ideal) (s := S650000) (φ := .f32)
          (Cert.ReferenceIdeal.ReadP.val_main_v22 (F := Ideal) (m ((c : Thread nD τ).loc main_arg1)))
          (Cert.ReferenceIdeal.ReadP.val_main_v30 (F := Ideal) (m ((c : Thread nD τ).loc main_arg1))) := by
  show StableHlo.after hostOps0_2 (W2 m ρ c) (Proc.devRef .tc main_v29) = _
  have e14 := w2_dinv m ρ c
  have e5 := w2_src m ρ c
  have e6 := w2_dst m ρ c
  revert e14 e5 e6
  generalize W2 m ρ c = F2
  intro e14 e5 e6
  after_results_simp
  rw [e14, e5, e6]
  rfl

/-- The first launch's feature operand: the features, narrowed. -/
theorem feat_eq (c : Dev nD) :
    V3 m ρ c main_v32 = truncf (F := Ideal) (s := S50000x128) (φ := .f32) .bf16 (m ((c : Thread nD τ).loc main_arg0)) Facts₀.bitsLt_bf16_f32 := by
  show StableHlo.after hostOps0_2 (StableHlo.after hostOps0_1 (StableHlo.after hostOps0 (W0 m ρ c))) (Proc.devRef .tc main_v32) = _
  after_results_simp <;> rfl

/-- The first launch's weight operand: the two weight matrices side by side, narrowed. -/
theorem weight_eq (c : Dev nD) :
    V3 m ρ c main_v33 = truncf (F := Ideal) (s := S128x256) (φ := .f32) .bf16
      (concatenate S128x256 1 [⟨S128x128, m ((c : Thread nD τ).loc main_arg2)⟩,
        ⟨S128x128, m ((c : Thread nD τ).loc main_arg4)⟩] Facts₀.concatenates_S128x128_S128x128_S128x256_d1) Facts₀.bitsLt_bf16_f32 := by
  show StableHlo.after hostOps0_2 (StableHlo.after hostOps0_1 (StableHlo.after hostOps0 (W0 m ρ c))) (Proc.devRef .tc main_v33) = _
  after_results_simp <;> rfl

/-- The two bias vectors end to end, before the first launch. -/
theorem biascat_eq (c : Dev nD) :
    W3 m ρ c (Proc.devRef .tc main_v31) = concatenate S256 0 [⟨S128, m ((c : Thread nD τ).loc main_arg3)⟩,
      ⟨S128, m ((c : Thread nD τ).loc main_arg5)⟩] Facts₀.concatenates_S128_S128_S256_d0 := by
  show StableHlo.after hostOps0_2 (StableHlo.after hostOps0_1 (StableHlo.after hostOps0 (W0 m ρ c))) (Proc.devRef .tc main_v31) = _
  after_results_simp <;> rfl

/-- The second launch's bias operand: the two bias vectors end to end, as one row. -/
theorem bias_eq (c : Dev nD) :
    V5 m ρ c main_v48 = shapeCast S1x256 (concatenate S256 0 [⟨S128, m ((c : Thread nD τ).loc main_arg3)⟩,
      ⟨S128, m ((c : Thread nD τ).loc main_arg5)⟩] Facts₀.concatenates_S128_S128_S256_d0) Facts₀.shapeCasts_S256_S1x256 := by
  show StableHlo.after hostOps1 (W4 m ρ c) (Proc.devRef .tc main_v48) = _
  after_results_simp
  rw [W4_of_ne m ρ c main_v31 (by decide), biascat_eq]
  rfl

/-- The second launch's aggregated operand: the first launch's output array gathered by source, scaled by the edge
    weights and added into zeros by destination. -/
theorem agg_eq (c : Dev nD) :
    V5 m ρ c main_v47 = aggregate (N := 50000) (M := 650000) (C := 256)
      Facts₀.scatter_S50000x256_S650000x1_S650000x256_1_0_0_1_wf Facts₀.gather_S50000x256_S650000x1_S650000x256_1_0_n_n_0_1_1256_wf
      Facts₀.bcast_S_S50000x256 Facts₀.bcast_S650000_S650000x1_0 Facts₀.bcast_S650000x1_S650000x256_0_1
      (W4 m ρ c (Proc.devRef .tc main_v34))
      (Cert.ReferenceIdeal.ReadP.val_main_v37 (F := Ideal) (m ((c : Thread nD τ).loc main_arg1)))
      (Cert.ReferenceIdeal.ReadP.val_main_v43 (F := Ideal) (m ((c : Thread nD τ).loc main_arg1)))
      (mulf (F := Ideal) (s := S650000) (φ := .f32) (Cert.ReferenceIdeal.ReadP.val_main_v22 (F := Ideal) (m ((c : Thread nD τ).loc main_arg1)))
        (Cert.ReferenceIdeal.ReadP.val_main_v30 (F := Ideal) (m ((c : Thread nD τ).loc main_arg1)))) := by
  show StableHlo.after hostOps1 (W4 m ρ c) (Proc.devRef .tc main_v47) = _
  after_results_simp
  rw [W4_of_ne m ρ c main_v5 (by decide), W4_of_ne m ρ c main_v6 (by decide), W4_of_ne m ρ c main_v29 (by decide),
    src_eq, dst_eq, norm_eq]
  unfold aggregate Cert.ReferenceIdeal.ReadP.val_main_v37 Cert.ReferenceIdeal.ReadP.val_main_v36 Cert.ReferenceIdeal.ReadP.val_main_v33 Cert.ReferenceIdeal.ReadP.val_main_v35 Cert.ReferenceIdeal.ReadP.val_main_v32 Cert.ReferenceIdeal.ReadP.val_main_v34 Cert.ReferenceIdeal.ReadP.val_main_c_6 Cert.ReferenceIdeal.ReadP.val_main_c_7 Cert.ReferenceIdeal.ReadP.val_main_v43
  rfl

end Cert.KernelIdeal.Host

end
-- ==== Proof.LibFlagLaw.lean ====
/-
  A one-bit flag as a number, and selecting between two values by it, on the extended reals.

  * The word of the float 1.0 denotes 1 (`one_word`); a one-bit word read as a number is 0 or 1 (`bit_cases`).
  * `law`: for a flag `f` that is 0 or 1, weighting two values `a`, `b` by `f · n` and `(1 - f) · n` and adding is
    forming `a · f + b · (1 - f)` and then multiplying by `n`. For `f = 0` both are `b · n`, for `f = 1` both are
    `a · n`: on the extended reals this takes only `0 · y = 0`, `y + 0 = y`, `1 · y = y`, `1 - 1 = 0` and
    associativity of the product, so none of `a`, `b`, `n` has to be finite.
-/
import Idealize.ShloMosaic.PureOps.Ideal.Laws

noncomputable section

namespace Cert.Lib.FlagLaw

open Idealize.ShloMosaic

/-- The word of the float 1.0 denotes 1. -/
theorem one_word : Ideal.ofBits .f32 0x3F800000#32 = (1 : EReal) := by
  simp [Ideal.ofBits, Ideal.ieee]
  norm_cast
  norm_num

/-- A one-bit word read as a number is 0 or 1. -/
theorem bit_cases (b : BitVec 1) : ((b.toNat : ℝ) : EReal) = 0 ∨ ((b.toNat : ℝ) : EReal) = 1 := by
  have h : b.toNat < 2 := b.isLt
  interval_cases hb : b.toNat <;> simp

theorem one_sub_one : (1 : EReal) - 1 = 0 := by
  rw [← EReal.coe_one, ← EReal.coe_sub]; simp

/-- Weighting each projection by its scaled flag is weighting the flagged sum. -/
theorem law (a b n f : EReal) (hf : f = 0 ∨ f = 1) :
    a * (f * n) + b * ((1 - f) * n) = (a * f + b * (1 - f)) * n := by
  rcases hf with rfl | rfl
  · simp [mul_assoc]
  · simp [one_sub_one]

end Cert.Lib.FlagLaw

end
-- ==== Proof.RefSide.lean ====
/-
  The reference's result at one entry, in closed form on the extended reals.

  One layer's aggregated entry at node `n` and feature `q` is
    `0 + ∑ e ∈ edges landing on n, (∑ k, x (row read by e, k) · W (k, q)) · (d⁻¹ᐟ² at e's source · d⁻¹ᐟ² at e's destination)`:
  the host's scatter-add into zeros of the gathered rows of `x · W`, each scaled by its edge's weight. The reference's
  edge weight carries a factor of the constant one, which is dropped (`a · 1 = a` on the extended reals). The result is
    `1/2 · (max (layer₁ + b₁ q) 0 + max (layer₂ + b₂ q) 0)`.
  Both layers read the same edges through the same index words, so the second layer's index and weight chains are the
  first layer's.
-/
import proofs.«157204_j54211077210420_1_alg».proof.Proof.RefReadPatched
import proofs.«157204_j54211077210420_1_alg».proof.Proof.LibAggregate
import proofs.«157204_j54211077210420_1_alg».proof.Proof.LibFlagLaw

set_option maxRecDepth 16384

noncomputable section

open scoped BigOperators

namespace Cert.ReferenceIdeal.Closed

open Cert.ReferenceIdeal Cert.ReferenceIdeal.ReadP
open Idealize.ShloMosaic Idealize.ShloMosaic.ValueIdx
open Cert.Lib.Aggregate Cert.Lib.RowScatter

/-- An array of shape `s` and element type `e` on the extended reals. -/
abbrev Arr (s : Shape) (e : EltTy) : Type := (⟨s, e⟩ : BufTy).Contents (Elt Ideal)

/-- One layer's aggregated entry at node `n`, feature `q`, for the weight matrix `w`. -/
def layer (x0 : Arr S50000x128 .f32) (x1 : Arr S2x600000 .i32) (w : Arr S128x128 .f32) (n : Fin 50000) (q : Fin 128) : EReal :=
  Ideal.ofBits .f32 0x00000000#32 + ∑ e ∈ landsOn (val_main_v43 (F := Ideal) x1) 50000 n,
    (∑ k : Fin 128, (x0 (ix2 (gatherRow 50000 (by decide) (val_main_v37 (F := Ideal) x1) e) k) : EReal) * (w (ix2 k q) : EReal))
      * ((val_main_v22 (F := Ideal) x1 (ix1 e) : EReal) * (val_main_v30 (F := Ideal) x1 (ix1 e) : EReal))

/-- The reference's edge weight: the two gathered factors, the factor one between them dropped. -/
theorem norm_apply (x1 : Arr S2x600000 .i32) (e : Fin 650000) :
    (val_main_v31 (F := Ideal) x1 (ix1 e) : EReal)
      = (val_main_v22 (F := Ideal) x1 (ix1 e) : EReal) * (val_main_v30 (F := Ideal) x1 (ix1 e) : EReal) := by
  show ((val_main_v22 (F := Ideal) x1 (ix1 e) : EReal) * (val_main_v8 (F := Ideal) (ix1 e) : EReal))
      * (val_main_v30 (F := Ideal) x1 (ix1 e) : EReal) = _
  rw [val_main_v8_apply, val_main_cst_apply]
  show (_ * Ideal.ofBits .f32 0x3F800000#32) * _ = _
  rw [Cert.Lib.FlagLaw.one_word, mul_one]

/-- The product `x · W` at row `r`, feature `q`. -/
theorem proj1_apply (x0 : Arr S50000x128 .f32) (w : Arr S128x128 .f32) (r : Fin 50000) (q : Fin 128) :
    (val_main_v4 (F := Ideal) x0 w (ix2 r q) : EReal) = ∑ k : Fin 128, (x0 (ix2 r k) : EReal) * (w (ix2 k q) : EReal) := by
  rw [val_main_v4_apply]
  refine Finset.sum_congr rfl fun k _ => ?_
  have el : lidx_main_v4 (ix2 r q) k = ix2 r k := funext fun a => Fin.ext (by
    match a with
    | ⟨0, _⟩ => rfl
    | ⟨1, _⟩ => rfl)
  have er : ridx_main_v4 (ix2 r q) k = ix2 k q := funext fun a => Fin.ext (by
    match a with
    | ⟨0, _⟩ => rfl
    | ⟨1, _⟩ => rfl)
  rw [el, er]

theorem proj2_apply (x0 : Arr S50000x128 .f32) (w : Arr S128x128 .f32) (r : Fin 50000) (q : Fin 128) :
    (val_main_v49 (F := Ideal) x0 w (ix2 r q) : EReal) = ∑ k : Fin 128, (x0 (ix2 r k) : EReal) * (w (ix2 k q) : EReal) := by
  rw [val_main_v49_apply]
  refine Finset.sum_congr rfl fun k _ => ?_
  have el : lidx_main_v49 (ix2 r q) k = ix2 r k := funext fun a => Fin.ext (by
    match a with
    | ⟨0, _⟩ => rfl
    | ⟨1, _⟩ => rfl)
  have er : ridx_main_v49 (ix2 r q) k = ix2 k q := funext fun a => Fin.ext (by
    match a with
    | ⟨0, _⟩ => rfl
    | ⟨1, _⟩ => rfl)
  rw [el, er]

/-- The first layer's aggregated array at `(n, q)`. -/
theorem layer1_apply (x0 : Arr S50000x128 .f32) (x1 : Arr S2x600000 .i32) (x2 : Arr S128x128 .f32) (n : Fin 50000) (q : Fin 128) :
    (val_main_v44 (F := Ideal) x0 x1 x2 (ix2 n q) : EReal) = layer x0 x1 x2 n q := by
  have h : val_main_v44 (F := Ideal) x0 x1 x2 = aggregate (N := 50000) (M := 650000) (C := 128)
      Cert.ReferenceIdeal.Facts₀.scatter_S50000x128_S650000x1_S650000x128_1_0_0_1_wf Cert.ReferenceIdeal.Facts₀.gather_S50000x128_S650000x1_S650000x128_1_0_n_n_0_1_1128_wf
      Cert.ReferenceIdeal.Facts₀.bcast_S_S50000x128 Cert.ReferenceIdeal.Facts₀.bcast_S650000_S650000x1_0 Cert.ReferenceIdeal.Facts₀.bcast_S650000x1_S650000x128_0_1
      (val_main_v4 (F := Ideal) x0 x2) (val_main_v37 (F := Ideal) x1) (val_main_v43 (F := Ideal) x1) (val_main_v31 (F := Ideal) x1) := rfl
  rw [h, aggregate_apply (by decide) (by decide)]
  unfold layer
  refine congrArg (fun t : EReal => Ideal.ofBits .f32 0x00000000#32 + t) ?_
  refine Finset.sum_congr rfl fun e _ => ?_
  rw [norm_apply, proj1_apply]

/-- The second layer's aggregated array at `(n, q)`: its index and weight chains are the first layer's. -/
theorem layer2_apply (x0 : Arr S50000x128 .f32) (x1 : Arr S2x600000 .i32) (x4 : Arr S128x128 .f32) (n : Fin 50000) (q : Fin 128) :
    (val_main_v89 (F := Ideal) x0 x1 x4 (ix2 n q) : EReal) = layer x0 x1 x4 n q := by
  have h : val_main_v89 (F := Ideal) x0 x1 x4 = aggregate (N := 50000) (M := 650000) (C := 128)
      Cert.ReferenceIdeal.Facts₀.scatter_S50000x128_S650000x1_S650000x128_1_0_0_1_wf Cert.ReferenceIdeal.Facts₀.gather_S50000x128_S650000x1_S650000x128_1_0_n_n_0_1_1128_wf
      Cert.ReferenceIdeal.Facts₀.bcast_S_S50000x128 Cert.ReferenceIdeal.Facts₀.bcast_S650000_S650000x1_0 Cert.ReferenceIdeal.Facts₀.bcast_S650000x1_S650000x128_0_1
      (val_main_v49 (F := Ideal) x0 x4) (val_main_v37 (F := Ideal) x1) (val_main_v43 (F := Ideal) x1) (val_main_v31 (F := Ideal) x1) := rfl
  rw [h, aggregate_apply (by decide) (by decide)]
  unfold layer
  refine congrArg (fun t : EReal => Ideal.ofBits .f32 0x00000000#32 + t) ?_
  refine Finset.sum_congr rfl fun e _ => ?_
  rw [norm_apply, proj2_apply]

/-- The bias row spread down the rows, at `(n, q)`: entry `q` of the bias vector. -/
theorem bias1_apply (x3 : Arr S128 .f32) (n : Fin 50000) (q : Fin 128) :
    (val_main_v46 (F := Ideal) x3 (ix2 n q) : EReal) = x3 (ix1 q) := by
  rw [val_main_v46_apply, val_main_v45_apply]
  exact congrArg x3 (funext fun a => Fin.ext (by
    match a with
    | ⟨0, _⟩ => rfl))

theorem bias2_apply (x5 : Arr S128 .f32) (n : Fin 50000) (q : Fin 128) :
    (val_main_v91 (F := Ideal) x5 (ix2 n q) : EReal) = x5 (ix1 q) := by
  rw [val_main_v91_apply, val_main_v90_apply]
  exact congrArg x5 (funext fun a => Fin.ext (by
    match a with
    | ⟨0, _⟩ => rfl))

/-- THE REFERENCE'S RESULT AT `(n, q)`. -/
theorem result_apply (x0 : Arr S50000x128 .f32) (x1 : Arr S2x600000 .i32) (x2 : Arr S128x128 .f32) (x3 : Arr S128 .f32)
    (x4 : Arr S128x128 .f32) (x5 : Arr S128 .f32) (n : Fin 50000) (q : Fin 128) :
    (val_main_v96 (F := Ideal) x0 x1 x2 x3 x4 x5 (ix2 n q) : EReal)
      = Ideal.ofBits .f32 0x3F000000#32
          * (max (layer x0 x1 x2 n q + x3 (ix1 q)) (Ideal.ofBits .f32 0x00000000#32)
            + max (layer x0 x1 x4 n q + x5 (ix1 q)) (Ideal.ofBits .f32 0x00000000#32)) := by
  rw [val_main_v96_apply, val_main_v94_apply, val_main_v48_apply, val_main_v93_apply, val_main_v47_apply, val_main_v92_apply,
    layer1_apply, layer2_apply, bias1_apply, bias2_apply, val_main_v95_apply, val_main_cst_20_apply,
    val_main_call1_v0_apply, val_main_call1_cst_apply, val_main_call3_v0_apply, val_main_call3_cst_apply]
  rfl

end Cert.ReferenceIdeal.Closed

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.Bridge.lean ====
/-
  The idealized kernel's result array is the reference's result array of the same arguments.

  The kernel aggregates the two layers at once: it multiplies the features by the two weight matrices laid side by side,
  gathers, scales and scatters 256-wide rows, and only then splits the halves, adds each half's bias, takes positive
  parts and averages. Column `q` of the fused product is `x · W₁` at `q`, column `q + 128` is `x · W₂` at `q`; the edges
  landing on a node, the row an edge reads and the edge's weight do not depend on the column. So entry `(n, q)` and entry
  `(n, q + 128)` of the fused aggregation are the two layers' aggregated entries, and the bias row's entries `q` and
  `q + 128` are `b₁ q` and `b₂ q`. No law beyond `a · 1 = a` is used: nothing has to be finite.
-/
import proofs.«157204_j54211077210420_1_alg».proof.Proof.KernelRun
import proofs.«157204_j54211077210420_1_alg».proof.Proof.Combine
import proofs.«157204_j54211077210420_1_alg».proof.Proof.Project
import proofs.«157204_j54211077210420_1_alg».proof.Proof.HostRead
import proofs.«157204_j54211077210420_1_alg».proof.Proof.RefSide
import proofs.«157204_j54211077210420_1_alg».proof.Proof.LibConcatRead

set_option maxRecDepth 16384

noncomputable section

open scoped BigOperators

namespace Cert.Bridge

open Idealize.ShloMosaic Idealize.ShloMosaic.TcCoe Idealize.ShloMosaic.ValueIdx Idealize.SL.Sem
open Cert.Lib.Aggregate Cert.Lib.RowScatter
open Cert.KernelIdeal (nD τ sig)
open Cert.KernelIdeal.Combine (lo hi)

section Abstract

variable (x0 : (⟨2, ![50000, 128]⟩ : Shape).Idx → EReal) (x1 : (⟨2, ![2, 600000]⟩ : Shape).Idx → BitVec 32)
  (x2 x4 : (⟨2, ![128, 128]⟩ : Shape).Idx → EReal) (x3 x5 : (⟨1, ![128]⟩ : Shape).Idx → EReal)

/-- The fused weight: the two weight matrices side by side, narrowed (the identity on the extended reals). -/
abbrev fused (hc : Shape.Concatenates [⟨2, ![128, 128]⟩, ⟨2, ![128, 128]⟩] ⟨2, ![128, 256]⟩ 1) (hb : FTy.bits .bf16 < FTy.bits .f32) :
    (⟨2, ![128, 256]⟩ : Shape).Idx → EReal :=
  truncf (F := Ideal) (s := ⟨2, ![128, 256]⟩) (φ := .f32) .bf16
    (concatenate ⟨2, ![128, 256]⟩ 1 [⟨⟨2, ![128, 128]⟩, x2⟩, ⟨⟨2, ![128, 128]⟩, x4⟩] hc) hb

/-- The fused aggregation as the kernel's host spells it. -/
abbrev fusedAgg
    (wfS : ScatterDims.WF ⟨2, ![50000, 256]⟩ ⟨2, ![650000, 1]⟩ ⟨2, ![650000, 256]⟩ [1] [0] [0] 1)
    (wfG : GatherDims.WF ⟨2, ![50000, 256]⟩ ⟨2, ![650000, 1]⟩ ⟨2, ![650000, 256]⟩ [1] [0] [] [0] [] 1 ![1, 256])
    (hz : (⟨0, ![]⟩ : Shape).BroadcastsInDim ⟨2, ![50000, 256]⟩ (![] : Fin 0 → Fin 2))
    (h₁ : (⟨1, ![650000]⟩ : Shape).BroadcastsInDim ⟨2, ![650000, 1]⟩ (![0] : Fin 1 → Fin 2))
    (h₂ : (⟨2, ![650000, 1]⟩ : Shape).BroadcastsInDim ⟨2, ![650000, 256]⟩ (![0, 1] : Fin 2 → Fin 2))
    (hc : Shape.Concatenates [⟨2, ![128, 128]⟩, ⟨2, ![128, 128]⟩] ⟨2, ![128, 256]⟩ 1) (hb : FTy.bits .bf16 < FTy.bits .f32) :
    (⟨2, ![50000, 256]⟩ : Shape).Idx → EReal :=
  aggregate (N := 50000) (M := 650000) (C := 256) wfS wfG hz h₁ h₂
    (Cert.KernelIdeal.Project.prod (N := 50000) (φ₁ := .bf16) (φ₂ := .bf16)
      (truncf (F := Ideal) (s := ⟨2, ![50000, 128]⟩) (φ := .f32) .bf16 x0 hb) (fused x2 x4 hc hb))
    (Cert.ReferenceIdeal.ReadP.val_main_v37 (F := Ideal) x1) (Cert.ReferenceIdeal.ReadP.val_main_v43 (F := Ideal) x1)
    (mulf (F := Ideal) (s := ⟨1, ![650000]⟩) (φ := .f32) (Cert.ReferenceIdeal.ReadP.val_main_v22 (F := Ideal) x1)
      (Cert.ReferenceIdeal.ReadP.val_main_v30 (F := Ideal) x1))

variable
    (wfS : ScatterDims.WF ⟨2, ![50000, 256]⟩ ⟨2, ![650000, 1]⟩ ⟨2, ![650000, 256]⟩ [1] [0] [0] 1)
    (wfG : GatherDims.WF ⟨2, ![50000, 256]⟩ ⟨2, ![650000, 1]⟩ ⟨2, ![650000, 256]⟩ [1] [0] [] [0] [] 1 ![1, 256])
    (hz : (⟨0, ![]⟩ : Shape).BroadcastsInDim ⟨2, ![50000, 256]⟩ (![] : Fin 0 → Fin 2))
    (h₁ : (⟨1, ![650000]⟩ : Shape).BroadcastsInDim ⟨2, ![650000, 1]⟩ (![0] : Fin 1 → Fin 2))
    (h₂ : (⟨2, ![650000, 1]⟩ : Shape).BroadcastsInDim ⟨2, ![650000, 256]⟩ (![0, 1] : Fin 2 → Fin 2))
    (hc : Shape.Concatenates [⟨2, ![128, 128]⟩, ⟨2, ![128, 128]⟩] ⟨2, ![128, 256]⟩ 1) (hb : FTy.bits .bf16 < FTy.bits .f32)

/-- Column `q` of the fused aggregation is the first layer's aggregated entry. -/
theorem fusedAgg_lo (n : Fin 50000) (q : Fin 128) :
    fusedAgg x0 x1 x2 x4 wfS wfG hz h₁ h₂ hc hb (ix2 n (lo q)) = Cert.ReferenceIdeal.Closed.layer x0 x1 x2 n q := by
  unfold fusedAgg
  rw [aggregate_apply (by decide) (by decide)]
  unfold Cert.ReferenceIdeal.Closed.layer
  refine congrArg (fun t : EReal => Ideal.ofBits .f32 0x00000000#32 + t) ?_
  refine Finset.sum_congr rfl fun e _ => ?_
  rw [Cert.KernelIdeal.Project.prod_apply]
  refine congrArg (fun t : EReal => t * ((Cert.ReferenceIdeal.ReadP.val_main_v22 (F := Ideal) x1 (ix1 e) : EReal)
    * (Cert.ReferenceIdeal.ReadP.val_main_v30 (F := Ideal) x1 (ix1 e) : EReal))) ?_
  refine Finset.sum_congr rfl fun k _ => ?_
  show (x0 (ix2 (gatherRow 50000 (by decide) (Cert.ReferenceIdeal.ReadP.val_main_v37 (F := Ideal) x1) e) k) : EReal)
      * concatenate ⟨2, ![128, 256]⟩ 1 [⟨⟨2, ![128, 128]⟩, x2⟩, ⟨⟨2, ![128, 128]⟩, x4⟩] hc (ix2 k (lo q)) = _
  rw [Cert.Lib.ConcatRead.cols_left x2 x4 hc k (lo q) q rfl]

/-- Column `q + 128` of the fused aggregation is the second layer's aggregated entry. -/
theorem fusedAgg_hi (n : Fin 50000) (q : Fin 128) :
    fusedAgg x0 x1 x2 x4 wfS wfG hz h₁ h₂ hc hb (ix2 n (hi q)) = Cert.ReferenceIdeal.Closed.layer x0 x1 x4 n q := by
  unfold fusedAgg
  rw [aggregate_apply (by decide) (by decide)]
  unfold Cert.ReferenceIdeal.Closed.layer
  refine congrArg (fun t : EReal => Ideal.ofBits .f32 0x00000000#32 + t) ?_
  refine Finset.sum_congr rfl fun e _ => ?_
  rw [Cert.KernelIdeal.Project.prod_apply]
  refine congrArg (fun t : EReal => t * ((Cert.ReferenceIdeal.ReadP.val_main_v22 (F := Ideal) x1 (ix1 e) : EReal)
    * (Cert.ReferenceIdeal.ReadP.val_main_v30 (F := Ideal) x1 (ix1 e) : EReal))) ?_
  refine Finset.sum_congr rfl fun k _ => ?_
  show (x0 (ix2 (gatherRow 50000 (by decide) (Cert.ReferenceIdeal.ReadP.val_main_v37 (F := Ideal) x1) e) k) : EReal)
      * concatenate ⟨2, ![128, 256]⟩ 1 [⟨⟨2, ![128, 128]⟩, x2⟩, ⟨⟨2, ![128, 128]⟩, x4⟩] hc (ix2 k (hi q)) = _
  rw [Cert.Lib.ConcatRead.cols_right x2 x4 hc k (hi q) q rfl]

variable (hv : Shape.Concatenates [⟨1, ![128]⟩, ⟨1, ![128]⟩] ⟨1, ![256]⟩ 0)
  (hs : (⟨1, ![256]⟩ : Shape).ShapeCasts ⟨2, ![1, 256]⟩)

/-- The bias row: the two bias vectors end to end, viewed as one row. -/
abbrev biasRow : (⟨2, ![1, 256]⟩ : Shape).Idx → EReal :=
  shapeCast ⟨2, ![1, 256]⟩ (concatenate ⟨1, ![256]⟩ 0 [⟨⟨1, ![128]⟩, x3⟩, ⟨⟨1, ![128]⟩, x5⟩] hv) hs

theorem biasRow_apply (k : Fin 256) :
    biasRow x3 x5 hv hs (ix2 (0 : Fin 1) k) = concatenate ⟨1, ![256]⟩ 0 [⟨⟨1, ![128]⟩, x3⟩, ⟨⟨1, ![128]⟩, x5⟩] hv (ix1 k) :=
  shapeCast_apply _ hs (ix2 (0 : Fin 1) k) (ix1 k) (by
    rw [Shape.rowMajor_val_one, Shape.rowMajor_val_two]
    show k.val = 0 * 256 + k.val
    omega)

theorem biasRow_lo (q : Fin 128) : biasRow x3 x5 hv hs (ix2 (0 : Fin 1) (lo q)) = x3 (ix1 q) := by
  rw [biasRow_apply]
  exact Cert.Lib.ConcatRead.vec_left x3 x5 hv (lo q) q rfl

theorem biasRow_hi (q : Fin 128) : biasRow x3 x5 hv hs (ix2 (0 : Fin 1) (hi q)) = x5 (ix1 q) := by
  rw [biasRow_apply]
  exact Cert.Lib.ConcatRead.vec_right x3 x5 hv (hi q) q rfl

/-- THE TWO SIDES ARE ONE FUNCTION: the combine of the fused aggregation and the bias row is the reference's result. -/
theorem combined_eq :
    Cert.KernelIdeal.Combine.whole (F := Ideal) (fusedAgg x0 x1 x2 x4 wfS wfG hz h₁ h₂ hc hb) (biasRow x3 x5 hv hs)
      = Cert.ReferenceIdeal.ReadP.val_main_v96 (F := Ideal) x0 x1 x2 x3 x4 x5 := by
  funext i
  obtain ⟨n, q, rfl⟩ : ∃ (n : Fin 50000) (q : Fin 128), i = ix2 n q := ⟨i 0, i 1, eq_ix2 i⟩
  rw [Cert.ReferenceIdeal.Closed.result_apply, Cert.KernelIdeal.Combine.whole_apply, fusedAgg_lo, fusedAgg_hi, biasRow_lo, biasRow_hi]
  rfl

end Abstract

/-! ## The kernel's result buffer -/

open Cert.KernelIdeal Cert.KernelIdeal.Gen

variable (m : (ℓ : Loc nD τ sig) → Buf (Elt Ideal) ℓ) (ρ : Dev nD → PrngReg)

/-- The first launch's output array when the second stretch of host operations reads it: the fused product. -/
theorem projected (c : Dev nD) :
    W4 m ρ c (Proc.devRef .tc main_v34)
      = Project.prod (N := 50000) (φ₁ := .bf16) (φ₂ := .bf16) (V3 m ρ c main_v32) (V3 m ρ c main_v33) :=
  (W4_arr m ρ c 2).trans (Project.final (V3 m ρ) c)

/-- THE KERNEL'S RESULT BUFFER at the end of its run is the reference's last stage of the kernel's arguments. -/
theorem kernel_result (c : Dev nD) :
    W6 m ρ c (Proc.devRef .tc main_v49)
      = Cert.ReferenceIdeal.ReadP.val_main_v96 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [Named.result_eq, Combine.final (V5 m ρ) c, Host.agg_eq, Host.bias_eq, projected, Host.feat_eq, Host.weight_eq]
  exact combined_eq _ _ _ _ _ _ _ _ _ _ _ _ _ _ _

end Cert.Bridge

end
-- ==== Proof.lean ====
/-
  A two-layer graph convolution with mean combine, 50000 nodes, 600000 edges, 128 features: the kernel against its
  reference on the extended reals.

  Both programs compute, per layer `l`, `relu (D⁻¹ᐟ² (A + I) D⁻¹ᐟ² (x · W_l) + b_l)` and return half the sum of the two
  layers. The reference does each layer by itself. The kernel multiplies `x` by `[W₁ | W₂]` in one launch of ten row
  blocks, lets the host gather, scale and scatter the 256-wide rows once, and in a second launch of ten row blocks adds
  the bias row `[b₁ | b₂]`, takes positive parts of the two halves and averages them.

  The modules under Proof/: the kernel's run with its result buffer named (KernelRun); each launch's output array as one
  whole-array function of the arrays it finds (Project: the product; Combine: bias, positive part, mean); the host
  stretches read at the launches' operands (HostRead); the reference's result at an entry in closed form (RefSide); and
  that the two sides are one function (Bridge): columns `q` and `q + 128` of the fused aggregation are the two layers'
  aggregated entries, because which edges land on a node, which row an edge reads and the edge's weight do not depend
  on the column. The only law used is `a · 1 = a` (the reference's edge weight carries a factor of the constant one), so
  the finiteness of the inputs is never needed.

  The ideal pass rewrote nothing, so `preserves` has no conjunct.
-/
import proofs.«157204_j54211077210420_1_alg».proof.Defs
import proofs.«157204_j54211077210420_1_alg».proof.Proof.Gen.Kernel
import proofs.«157204_j54211077210420_1_alg».proof.Proof.Gen.Kernel.Skeleton
import proofs.«157204_j54211077210420_1_alg».proof.Proof.Gen.Kernel.Launch
import proofs.«157204_j54211077210420_1_alg».proof.Proof.Gen.Kernel.Points
import proofs.«157204_j54211077210420_1_alg».proof.Proof.Gen.Kernel.Frame
import proofs.«157204_j54211077210420_1_alg».proof.Proof.Gen.KernelIdeal
import proofs.«157204_j54211077210420_1_alg».proof.Proof.Gen.KernelIdeal.Skeleton
import proofs.«157204_j54211077210420_1_alg».proof.Proof.Gen.KernelIdeal.Launch
import proofs.«157204_j54211077210420_1_alg».proof.Proof.Gen.KernelIdeal.Points
import proofs.«157204_j54211077210420_1_alg».proof.Proof.Gen.KernelIdeal.Frame
import proofs.«157204_j54211077210420_1_alg».proof.Proof.Gen.ReferenceIdeal
import proofs.«157204_j54211077210420_1_alg».proof.Proof.Gen.Pre_finite_inputs
import proofs.«157204_j54211077210420_1_alg».proof.Proof.RefRunPatched
import proofs.«157204_j54211077210420_1_alg».proof.Proof.RefReadPatched
import proofs.«157204_j54211077210420_1_alg».proof.Proof.KernelRun
import proofs.«157204_j54211077210420_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the six arguments both programs end with the same result array: the reference's last stage
    of the arguments, which the kernel's second launch leaves in its output array. -/
theorem algebraic : Cert.algebraic_KernelIdeal_ReferenceIdeal := by
  intro m ρ m' ρ' _ hagree
  refine ⟨fun c => Cert.ReferenceIdeal.ReadP.val_main_v96 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_result m ρ c), (h c).2⟩) (Cert.KernelIdeal.Named.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v96_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
